-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x32 .f32) (main_arg3 : FVec F S32x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S10000x32 : Shape := ⟨2, ![10000, 32]⟩
abbrev S400x10000 : Shape := ⟨2, ![400, 10000]⟩
abbrev S400x128 : Shape := ⟨2, ![400, 128]⟩
abbrev S400x32 : Shape := ⟨2, ![400, 32]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x128, .f32⟩
  | .hbm, ⟨4, _⟩ => ⟨S10000x32, .bf16⟩
  | .hbm, ⟨5, _⟩ => ⟨S10000x128, .f32⟩
  | .local _ .vmem, ⟨0, _⟩ => ⟨S10000x128, .f32⟩
  | .local _ .vmem, ⟨1, _⟩ => ⟨S128x32, .f32⟩
  | .local _ .vmem, ⟨2, _⟩ => ⟨S10000x32, .bf16⟩
  | .local _ .vmem, ⟨3, _⟩ => ⟨S10000x32, .bf16⟩
  | .local _ .vmem, ⟨4, _⟩ => ⟨S400x10000, .f32⟩
  | .local _ .vmem, ⟨5, _⟩ => ⟨S400x10000, .f32⟩
  | .local _ .vmem, ⟨6, _⟩ => ⟨S32x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x32 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S32x128_S32x128_0_0 : ∀ a, (![0, 0] : Fin 2 → Nat) a + S32x128.size a ≤ S32x128.size a
  h_S32x128 : 0 < S32x128.numel
  inb_S400x128_S400x128_0_0 : ∀ a, (![0, 0] : Fin 2 → Nat) a + S400x128.size a ≤ S400x128.size a
  h_S400x128 : 0 < S400x128.numel
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x128_S400x128_1_0_0_1_n_n_wf : DotDims.WF S400x32 S32x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S10000x32.size a
  hwx1_0 : ∀ i : grid1.Coords, EltTy.bits .bf16 = 32 ∨ (Rect.block (s := S10000x32) S10000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x128_S400x128_1_0_0_1_n_n : DotDims S400x32 S32x128 S400x128 where
  lhsContracting := [1]
  rhsContracting := [0]
  lhsNonContracting := [0]
  rhsNonContracting := [1]
  lhsBatch := []
  rhsBatch := []
  wf := dot_S400x32_S32x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x32.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S10000x32 : Shape := ⟨2, ![10000, 32]⟩

abbrev nBuf : Space → Nat
  | .hbm => 7
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x128, .f32⟩
  | .hbm, ⟨4, _⟩ => ⟨S10000x32, .f32⟩
  | .hbm, ⟨5, _⟩ => ⟨S10000x128, .f32⟩
  | .hbm, ⟨6, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S10000x128_S128x32_S10000x32_1_0_0_1_n_n_wf : DotDims.WF S10000x128 S128x32 S10000x32 [1] [0] [0] [1] [] []
  dot_S10000x32_S32x128_S10000x128_1_0_0_1_n_n_wf : DotDims.WF S10000x32 S32x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result named.

  The program is two kernel regions in a row.  The first writes the projected features H = X · W1 into a buffer of its
  own; the second reads that buffer, the adjacency matrix A and W2, and writes the result block by block.  The run
  below is the run of the two regions one after the other, read at the end for the result's buffer as well as for the
  four argument arrays: the result's buffer ends holding what the second region's write-backs leave in it, and each
  argument ends as launched.
-/
import proofs.«109558_g61306363183711_cont_9to1_m_1256_16_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the contents
    the second region leaves (the last boundary's contents, read at that buffer) and the four arguments as launched. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Run

end
-- ==== Proof.LibRowOps.lean ====
/-
  General reads at an index, at the ideal values, used by the row-local stages of a network: a matrix product
  accumulated into zero, a column broadcast across the columns, and a select on a strict comparison of two values.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.TripleProduct.lean ====
/-
  The one law of this certificate, on the extended reals.

  The kernel forms (A · H) · W and the reference forms A · (H · W), where A is the adjacency matrix, H the projected
  features and W the second weight matrix.  Entry by entry these are the two iterated sums

      ∑ l, (∑ k, a k * h k l) * w l      and      ∑ k, a k * ∑ l, h k l * w l ,

  equal by distributivity and an exchange of the two summations.  Distributivity fails on the extended reals at the
  infinities, so the law is stated for families of real numbers; there both sides are the coercion of one real
  number.
-/
import proofs.«109558_g61306363183711_cont_9to1_m_1256_16_alg».proof.Proof.LibFinite

noncomputable section

namespace Cert.TripleProduct

open Cert.LibFinite

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law on the reals: expand both products, exchange the two sums, and compare term by term. -/
theorem real_assoc {K L : Type} [Fintype K] [Fintype L] (a : K → ℝ) (h : K → L → ℝ) (w : L → ℝ) :
    ∑ l, (∑ k, a k * h k l) * w l = ∑ k, a k * ∑ l, h k l * w l := by
  simp only [Finset.sum_mul, Finset.mul_sum]
  rw [Finset.sum_comm]
  exact Finset.sum_congr rfl fun k _ => Finset.sum_congr rfl fun l _ => by ring

/-- Associativity of the triple product, entry by entry, for real-valued families in the extended reals. -/
theorem assoc {K L : Type} [Fintype K] [Fintype L] (a : K → EReal) (h : K → L → EReal) (w : L → EReal)
    (ha : ∀ k, IsFin (a k)) (hh : ∀ k l, IsFin (h k l)) (hw : ∀ l, IsFin (w l)) :
    ∑ l, (∑ k, a k * h k l) * w l = ∑ k, a k * ∑ l, h k l * w l := by
  choose a' ha' using ha
  choose h' hh' using hh
  choose w' hw' using hw
  simp only [ha', hh', hw', ← EReal.coe_mul, ← coe_sum]
  exact congrArg _ (real_assoc a' h' w')

/-- A sum of products of reals is a real: an entry of a product of two real matrices. -/
theorem isFin_dot {J : Type} [Fintype J] (x w : J → EReal) (hx : ∀ j, IsFin (x j)) (hw : ∀ j, IsFin (w j)) :
    IsFin (∑ j, x j * w j) :=
  IsFin.sum _ _ fun j _ => (hx j).mul (hw j)

end Cert.TripleProduct

end
-- ==== Proof.Spec.lean ====
/-
  The layer as functions of whole arrays, index by index, over the extended reals.

  With X the node features (10000 × 128), W1 and W2 the two weight matrices (128 × 32 and 32 × 128) and A the dense
  adjacency matrix (10000 × 10000), the layer is A · ((X · W1) · W2).  Writing H = X · W1 for the projected features,
  one program forms (A · H) · W2 and the other A · (H · W2).  The two agree wherever A, H and W2 hold real numbers
  (associativity of the matrix product: the law of the triple product, entry by entry), and H holds real numbers
  wherever X and W1 do.
-/
import Idealize.ShloMosaic.Lib.ValueIdx
import proofs.«109558_g61306363183711_cont_9to1_m_1256_16_alg».proof.Proof.TripleProduct

noncomputable section

namespace Cert.Layer

open Idealize.ShloMosaic Idealize.ShloMosaic.ValueIdx Cert.LibFinite

/-- A rank-2 index is determined by its two coordinates. -/
theorem idx_eq_ix2 {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- The projected features H = X · W1: entry (r, l) sums X(r, j) · W1(j, l) over the 128 input features. -/
def projected (x : (⟨2, ![10000, 128]⟩ : Shape).Idx → EReal) (w1 : (⟨2, ![128, 32]⟩ : Shape).Idx → EReal) :
    (⟨2, ![10000, 32]⟩ : Shape).Idx → EReal :=
  fun i => ∑ j : Fin 128, x (ix2 (i 0) j) * w1 (ix2 j (i 1))

/-- (A · H) · W2: entry (r, n) sums, over the 32 hidden features l, row r of A against column l of H, times W2(l, n). -/
def aggregateThenExpand (adj : (⟨2, ![10000, 10000]⟩ : Shape).Idx → EReal) (h : (⟨2, ![10000, 32]⟩ : Shape).Idx → EReal)
    (w2 : (⟨2, ![32, 128]⟩ : Shape).Idx → EReal) : (⟨2, ![10000, 128]⟩ : Shape).Idx → EReal :=
  fun i => ∑ l : Fin 32, (∑ k : Fin 10000, adj (ix2 (i 0) k) * h (ix2 k l)) * w2 (ix2 l (i 1))

/-- A · (H · W2): entry (r, n) sums, over the 10000 nodes k, A(r, k) times entry (k, n) of H · W2. -/
def expandThenAggregate (adj : (⟨2, ![10000, 10000]⟩ : Shape).Idx → EReal) (h : (⟨2, ![10000, 32]⟩ : Shape).Idx → EReal)
    (w2 : (⟨2, ![32, 128]⟩ : Shape).Idx → EReal) : (⟨2, ![10000, 128]⟩ : Shape).Idx → EReal :=
  fun i => ∑ k : Fin 10000, adj (ix2 (i 0) k) * ∑ l : Fin 32, h (ix2 k l) * w2 (ix2 l (i 1))

/-- The projected features of real-valued X and W1 are real-valued. -/
theorem projected_isFin (x : (⟨2, ![10000, 128]⟩ : Shape).Idx → EReal) (w1 : (⟨2, ![128, 32]⟩ : Shape).Idx → EReal)
    (hx : ∀ i, IsFin (x i)) (hw : ∀ i, IsFin (w1 i)) (i : (⟨2, ![10000, 32]⟩ : Shape).Idx) : IsFin (projected x w1 i) :=
  TripleProduct.isFin_dot _ _ (fun _ => hx _) (fun _ => hw _)

/-- On real-valued arrays the two orders of the product agree. -/
theorem orders_agree (adj : (⟨2, ![10000, 10000]⟩ : Shape).Idx → EReal) (h : (⟨2, ![10000, 32]⟩ : Shape).Idx → EReal)
    (w2 : (⟨2, ![32, 128]⟩ : Shape).Idx → EReal) (hadj : ∀ i, IsFin (adj i)) (hh : ∀ i, IsFin (h i))
    (hw : ∀ i, IsFin (w2 i)) : aggregateThenExpand adj h w2 = expandThenAggregate adj h w2 :=
  funext fun i => TripleProduct.assoc (fun k => adj (ix2 (i 0) k)) (fun k l => h (ix2 k l)) (fun l => w2 (ix2 l (i 1)))
    (fun _ => hadj _) (fun _ _ => hh _) (fun _ => hw _)

end Cert.Layer

end
-- ==== Proof.Payloads.lean ====
/-
  What the two kernel bodies store, entry by entry, at the ideal values.

  The projection body stores X · W1: entry (r, l) is the sum over the 128 input features j of X(r, j) · W1(j, l).
  The aggregation body, given a block of 400 rows A of the adjacency matrix, the projected features H and W2, stores
  (A · H) · W2: entry (p, n) is the sum over the 32 hidden features l of (∑ k, A(p, k) · H(k, l)) · W2(l, n), the inner
  sum over all 10000 nodes k.  A change of float format is the identity at the ideal values, a cast to the same shape is
  the identity, and a matrix product accumulated into the zero splat is the plain sum of products.
-/
import proofs.«109558_g61306363183711_cont_9to1_m_1256_16_alg».proof.Proof.Gen.KernelIdeal.Skeleton
import proofs.«109558_g61306363183711_cont_9to1_m_1256_16_alg».proof.Proof.LibRowOps
import proofs.«109558_g61306363183711_cont_9to1_m_1256_16_alg».proof.Proof.Spec

noncomputable section

namespace Cert.KernelIdeal.Payloads

open Cert.KernelIdeal Cert.KernelIdeal.Gen Idealize.ShloMosaic Idealize.ShloMosaic.ValueIdx Cert.RowLib Cert.Layer

/-- Entry (r, l) of the projection X · W1. -/
theorem proj_apply (x : Vec Ideal S10000x128 .f32) (w : Vec Ideal S128x32 .f32) (r : Fin 10000) (l : Fin 32) :
    k0_pay1 (F := Ideal) x w (ix2 r l) = ∑ j : Fin 128, x (ix2 r j) * w (ix2 j l) := by
  unfold k0_pay1
  rw [dotDims_eq_plain dot_S10000x128_S128x32_S10000x32_1_0_0_1_n_n rfl rfl rfl rfl rfl rfl]
  exact matmul_plain_zero_ix2 none _ _ r l

/-- Entry (p, n) of (A · H) · W2 for a block A of 400 rows. -/
theorem agg_apply (a : Vec Ideal S400x10000 .f32) (h : Vec Ideal S10000x32 .bf16) (w : Vec Ideal S32x128 .f32)
    (p : Fin 400) (n : Fin 128) :
    k1_pay1 (F := Ideal) a h w (ix2 p n)
      = ∑ l : Fin 32, (∑ k : Fin 10000, a (ix2 p k) * h (ix2 k l)) * w (ix2 l n) := by
  unfold k1_pay1
  rw [shapeCast_self, dotDims_eq_plain dot_S400x32_S32x128_S400x128_1_0_0_1_n_n rfl rfl rfl rfl rfl rfl,
    dotDims_eq_plain dot_S400x10000_S10000x32_S400x32_1_0_0_1_n_n rfl rfl rfl rfl rfl rfl]
  refine (matmul_plain_zero_ix2 none _ _ p n).trans ?_
  refine Finset.sum_congr rfl fun l _ => ?_
  refine congrArg (· * w (ix2 l n)) ?_
  exact matmul_plain_zero_ix2 (φ₁ := .bf16) (φ₂ := .bf16) none (truncf .bf16 a bitsLt_bf16_f32) h p l

/-- If the projection body's two operands agree with arrays X and W1 along row r of the first and column l of the
    second, what it stores at (r, l) is entry (r, l) of the projected features of X and W1. -/
theorem proj_entry (x : Vec Ideal S10000x128 .f32) (w : Vec Ideal S128x32 .f32)
    (X : (⟨2, ![10000, 128]⟩ : Shape).Idx → EReal) (W1 : (⟨2, ![128, 32]⟩ : Shape).Idx → EReal) (r : Fin 10000) (l : Fin 32)
    (hx : ∀ j : Fin 128, x (ix2 r j) = X (ix2 r j)) (hw : ∀ j : Fin 128, w (ix2 j l) = W1 (ix2 j l)) :
    k0_pay1 (F := Ideal) x w (ix2 r l) = projected X W1 (ix2 r l) := by
  refine (proj_apply x w r l).trans ?_
  unfold projected
  exact Finset.sum_congr rfl fun j _ => by rw [hx j, hw j]

/-- If the aggregation body's block of 400 rows is rows of an array A, row p of the block being row r of A, and its
    other two operands are arrays H and W2, what it stores at (p, n) is entry (r, n) of (A · H) · W2. -/
theorem agg_entry (a : Vec Ideal S400x10000 .f32) (h : Vec Ideal S10000x32 .bf16) (w : Vec Ideal S32x128 .f32)
    (A : (⟨2, ![10000, 10000]⟩ : Shape).Idx → EReal) (H : (⟨2, ![10000, 32]⟩ : Shape).Idx → EReal)
    (W2 : (⟨2, ![32, 128]⟩ : Shape).Idx → EReal) (r : Fin 10000) (p : Fin 400) (n : Fin 128)
    (ha : ∀ k : Fin 10000, a (ix2 p k) = A (ix2 r k)) (hh : ∀ (k : Fin 10000) (l : Fin 32), h (ix2 k l) = H (ix2 k l))
    (hw : ∀ l : Fin 32, w (ix2 l n) = W2 (ix2 l n)) :
    k1_pay1 (F := Ideal) a h w (ix2 p n) = aggregateThenExpand A H W2 (ix2 r n) := by
  refine (agg_apply a h w p n).trans ?_
  unfold aggregateThenExpand
  refine Finset.sum_congr rfl fun l _ => ?_
  rw [hw l]
  refine congrArg (· * W2 (ix2 l n)) (Finset.sum_congr rfl fun k _ => ?_)
  rw [ha k, hh k l]

end Cert.KernelIdeal.Payloads

end
-- ==== Proof.KernelValue.lean ====
/-
  What the idealized kernel's result buffer holds after the run: (A · H) · W2 with H = X · W1, as one function of the
  four argument arrays.

  First region: one point, whose blocks are the whole arrays; it writes H = X · W1 over the whole of its output.
  Second region: 25 points; point t reads rows 400·t … 400·t + 399 of A, all of H and all of W2, and writes those rows
  of (A · H) · W2.  The 25 row blocks tile the 10000 rows, so the output ends holding (A · H) · W2 everywhere.  Between
  the regions nothing else is written: the second region finds H where the first left it and A and W2 as launched.
-/
import proofs.«109558_g61306363183711_cont_9to1_m_1256_16_alg».proof.Proof.KernelRun
import proofs.«109558_g61306363183711_cont_9to1_m_1256_16_alg».proof.Proof.Payloads
import proofs.«109558_g61306363183711_cont_9to1_m_1256_16_alg».proof.Proof.Spec
import Idealize.ShloMosaic.Lib.Pipeline.Value

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem
open Idealize.ShloMosaic.Pipeline (Dat)
open Cert.Layer Cert.KernelIdeal.Payloads

section Regions

variable (V : (c : Dev nD) → (b : Ref sig .tc) → Buf (Elt Ideal) ((c : Thread nD τ).loc b))

theorem zero_offsets : (![0, 0] : Fin 2 → Nat) = fun _ => 0 := funext fun a => by fin_cases a <;> rfl

/-! ## The first region: the projected features -/

/-- The one point writes back the projected features of the two arrays it reads, over its whole block. -/
theorem flushed0_eq (c : Dev nD) (t : Fin cfg0.N) :
    (dat0 V c).flushed 2 t = ((cfg0.win 2).blk t).view.read (Elt Ideal) (projected (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x32) zero_offsets]
  funext j
  have hj0 : (j 0).val < 10000 := (j 0).isLt
  have hj1 : (j 1).val < 32 := (j 1).isLt
  show k0_pay1 (F := Ideal) (iblk0 V c 0 t) (iblk0 V c 1 t) ((win0 2).xinj (grid0.coords t) j)
    = projected (V c main_arg0) (V c main_arg2) (((cfg0.win 2).blk t).view.emb j)
  have eL : (win0 2).xinj (grid0.coords t) j = ix2 (⟨(j 0).val, hj0⟩ : Fin 10000) (⟨(j 1).val, hj1⟩ : Fin 32) :=
    idx_eq_ix2 (n0 := 10000) (n1 := 32) _ _ _ rfl rfl
  have eR : ((cfg0.win 2).blk t).view.emb j = ix2 (⟨(j 0).val, hj0⟩ : Fin 10000) (⟨(j 1).val, hj1⟩ : Fin 32) :=
    idx_eq_ix2 (n0 := 10000) (n1 := 32) _ _ _
      (by show win0_2.index t (0 : Fin 2) * 10000 + 1 * (j 0).val = (j 0).val
          have : win0_2.index t (0 : Fin 2) = 0 := rfl
          omega)
      (by show win0_2.index t (1 : Fin 2) * 32 + 1 * (j 1).val = (j 1).val
          have : win0_2.index t (1 : Fin 2) = 0 := rfl
          omega)
  rw [eL, eR]
  refine proj_entry (iblk0 V c 0 t) (iblk0 V c 1 t) (V c main_arg0) (V c main_arg2) ⟨(j 0).val, hj0⟩ ⟨(j 1).val, hj1⟩ ?_ ?_
  · intro k
    show V c main_arg0 (((cfg0.win 0).blk t).view.emb (ix2 (⟨(j 0).val, hj0⟩ : Fin 10000) k)) = _
    refine congrArg (V c main_arg0) (idx_eq_ix2 (n0 := 10000) (n1 := 128) _ _ _ ?_ ?_)
    · show win0_0.index t (0 : Fin 2) * 10000 + 1 * (j 0).val = (j 0).val
      have : win0_0.index t (0 : Fin 2) = 0 := rfl
      omega
    · show win0_0.index t (1 : Fin 2) * 128 + 1 * k.val = k.val
      have : win0_0.index t (1 : Fin 2) = 0 := rfl
      omega
  · intro k
    show V c main_arg2 (((cfg0.win 1).blk t).view.emb (ix2 k (⟨(j 1).val, hj1⟩ : Fin 32))) = _
    refine congrArg (V c main_arg2) (idx_eq_ix2 (n0 := 128) (n1 := 32) _ _ _ ?_ ?_)
    · show win0_1.index t (0 : Fin 2) * 128 + 1 * k.val = k.val
      have : win0_1.index t (0 : Fin 2) = 0 := rfl
      omega
    · show win0_1.index t (1 : Fin 2) * 32 + 1 * (j 1).val = (j 1).val
      have : win0_1.index t (1 : Fin 2) = 0 := rfl
      omega

/-- An index of the output is in a point's block when each coordinate is in the block's range on its axis. -/
theorem mem_blk0 (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- The one block is the whole output. -/
theorem cover0 (i : S10000x32.Idx) : ∃ t : Fin cfg0.N, (cfg0.win 2).flush t = true ∧ i ∈ ((cfg0.win 2).blk t).view.set := by
  refine ⟨t0_0, flush0_2 t0_0, (mem_blk0 t0_0 i).mpr fun a => ?_⟩
  have hi0 : (i 0).val < 10000 := (i 0).isLt
  have hi1 : (i 1).val < 32 := (i 1).isLt
  match a with
  | ⟨0, _⟩ =>
    show win0_2.index t0_0 (0 : Fin 2) * 10000 ≤ (i 0).val ∧ (i 0).val < win0_2.index t0_0 (0 : Fin 2) * 10000 + 10000
    have : win0_2.index t0_0 (0 : Fin 2) = 0 := rfl
    omega
  | ⟨1, _⟩ =>
    show win0_2.index t0_0 (1 : Fin 2) * 32 ≤ (i 1).val ∧ (i 1).val < win0_2.index t0_0 (1 : Fin 2) * 32 + 32
    have : win0_2.index t0_0 (1 : Fin 2) = 0 := rfl
    omega

/-- After the first region its output holds the projected features of the two arrays it read. -/
theorem final0 (c : Dev nD) : (dat0 V c).arrAt 2 cfg0.N = projected (V c main_arg0) (V c main_arg2) :=
  (dat0 V c).arrAt_eq_of_cover 2 (projected (V c main_arg0) (V c main_arg2)) (fun t _ => flushed0_eq V c t) cover0

/-! ## The second region: aggregation, then expansion, block of rows by block of rows -/

/-- The block indices over the 25 points: the adjacency and output blocks move down the rows together, one block per
    point; nothing moves along the columns, and the features and weights are one block each. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t writes back rows 400·t … 400·t + 399 of (A · H) · W2, of the arrays as the region finds them. -/
theorem flushed1_eq (c : Dev nD) (t : Fin cfg1.N) :
    (dat1 V c).flushed 3 t = ((cfg1.win 3).blk t).view.read (Elt Ideal)
      (aggregateThenExpand (V c main_arg1) (V c main_v0) (V c main_arg3)) := by
  show (cfg1.win 3).cut (grid1.coords t) ((dat1 V c).after 3 t) = _
  rw [after1_3]
  unfold out1_3
  rw [View.canon_unit_zero zero_offsets]
  simp only [View.ld_unit_zero (S := S400x10000) zero_offsets, View.ld_unit_zero (S := S10000x32) zero_offsets,
    View.ld_unit_zero (S := S32x128) zero_offsets]
  obtain ⟨f00, f01, f10, f11, f20, f21, f30, f31⟩ := idx_facts1 t
  have ht : t.val < 25 := lt_of_lt_of_eq t.isLt N_1
  funext j
  have hj0 : (j 0).val < 400 := (j 0).isLt
  have hj1 : (j 1).val < 128 := (j 1).isLt
  have hr : t.val * 400 + (j 0).val < 10000 := by omega
  show k1_pay1 (F := Ideal) (iblk1 V c 1 t) (iblk1 V c 0 t) (iblk1 V c 2 t) ((win1 3).xinj (grid1.coords t) j)
    = aggregateThenExpand (V c main_arg1) (V c main_v0) (V c main_arg3) (((cfg1.win 3).blk t).view.emb j)
  have eL : (win1 3).xinj (grid1.coords t) j = ix2 (⟨(j 0).val, hj0⟩ : Fin 400) (⟨(j 1).val, hj1⟩ : Fin 128) :=
    idx_eq_ix2 (n0 := 400) (n1 := 128) _ _ _ rfl rfl
  have eR : ((cfg1.win 3).blk t).view.emb j
      = ix2 (⟨t.val * 400 + (j 0).val, hr⟩ : Fin 10000) (⟨(j 1).val, hj1⟩ : Fin 128) :=
    idx_eq_ix2 (n0 := 10000) (n1 := 128) _ _ _
      (by show win1_3.index t (0 : Fin 2) * 400 + 1 * (j 0).val = t.val * 400 + (j 0).val; omega)
      (by show win1_3.index t (1 : Fin 2) * 128 + 1 * (j 1).val = (j 1).val; omega)
  rw [eL, eR]
  refine agg_entry (iblk1 V c 1 t) (iblk1 V c 0 t) (iblk1 V c 2 t) (V c main_arg1) (V c main_v0) (V c main_arg3)
    ⟨t.val * 400 + (j 0).val, hr⟩ ⟨(j 0).val, hj0⟩ ⟨(j 1).val, hj1⟩ ?_ ?_ ?_
  · intro k
    show V c main_arg1 (((cfg1.win 1).blk t).view.emb (ix2 (⟨(j 0).val, hj0⟩ : Fin 400) k)) = _
    refine congrArg (V c main_arg1) (idx_eq_ix2 (n0 := 10000) (n1 := 10000) _ _ _ ?_ ?_)
    · show win1_1.index t (0 : Fin 2) * 400 + 1 * (j 0).val = t.val * 400 + (j 0).val; omega
    · show win1_1.index t (1 : Fin 2) * 10000 + 1 * k.val = k.val; omega
  · intro k l
    show V c main_v0 (((cfg1.win 0).blk t).view.emb (ix2 k l)) = _
    refine congrArg (V c main_v0) (idx_eq_ix2 (n0 := 10000) (n1 := 32) _ _ _ ?_ ?_)
    · show win1_0.index t (0 : Fin 2) * 10000 + 1 * k.val = k.val; omega
    · show win1_0.index t (1 : Fin 2) * 32 + 1 * l.val = l.val; omega
  · intro l
    show V c main_arg3 (((cfg1.win 2).blk t).view.emb (ix2 l (⟨(j 1).val, hj1⟩ : Fin 128))) = _
    refine congrArg (V c main_arg3) (idx_eq_ix2 (n0 := 32) (n1 := 128) _ _ _ ?_ ?_)
    · show win1_2.index t (0 : Fin 2) * 32 + 1 * l.val = l.val; omega
    · show win1_2.index t (1 : Fin 2) * 128 + 1 * (j 1).val = (j 1).val; omega

/-- An index of the output is in point t's block when each coordinate is in the block's range on its axis. -/
theorem mem_blk1 (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v1).slice (win1_3.rect t)).set ↔ _
  rw [View.set_slice_whole, Rect.mem_set_unit]
  exact Iff.rfl

/-- The 25 blocks of 400 rows tile the 10000 rows: row r is in the block of point r / 400. -/
theorem cover1 (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  have htv : t.val = (i 0).val / 400 := rfl
  obtain ⟨-, -, -, -, -, -, f30, f31⟩ := idx_facts1 t
  refine ⟨t, flush1_3 t, (mem_blk1 t i).mpr fun a => ?_⟩
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 128 ≤ (i 1).val ∧ (i 1).val < win1_3.index t (1 : Fin 2) * 128 + 128
    omega

/-- After the second region its output holds (A · H) · W2 of the arrays it read. -/
theorem final1 (c : Dev nD) :
    (dat1 V c).arrAt 3 cfg1.N = aggregateThenExpand (V c main_arg1) (V c main_v0) (V c main_arg3) :=
  (dat1 V c).arrAt_eq_of_cover 3 (aggregateThenExpand (V c main_arg1) (V c main_v0) (V c main_arg3))
    (fun t _ => flushed1_eq V c t) cover1

end Regions

/-! ## The two regions in a row -/

variable (m : (ℓ : Loc nD τ sig) → Buf (Elt Ideal) ℓ) (ρ : Dev nD → PrngReg)

/-- What the second region finds in the features' buffer: the projected features of the launched X and W1. -/
theorem entry_features (c : Dev nD) :
    V1 m ρ c main_v0 = projected (m ((c : Thread nD τ).loc main_arg0)) (m ((c : Thread nD τ).loc main_arg2)) :=
  (W1_arr m ρ c 2).trans (final0 (V0 m ρ) c)

/-- The second region finds the adjacency matrix as launched: the first region does not touch it. -/
theorem entry_adj (c : Dev nD) : V1 m ρ c main_arg1 = m ((c : Thread nD τ).loc main_arg1) :=
  W1_of_ne m ρ c main_arg1 (by decide)

/-- The second region finds W2 as launched: the first region does not touch it. -/
theorem entry_w2 (c : Dev nD) : V1 m ρ c main_arg3 = m ((c : Thread nD τ).loc main_arg3) :=
  W1_of_ne m ρ c main_arg3 (by decide)

/-- The result's buffer at the end: (A · H) · W2 with H the projected features, of the arrays as launched. -/
theorem result_eq (c : Dev nD) :
    W2 m ρ c (Proc.devRef .tc main_v1)
      = aggregateThenExpand (m ((c : Thread nD τ).loc main_arg1))
          (projected (m ((c : Thread nD τ).loc main_arg0)) (m ((c : Thread nD τ).loc main_arg2)))
          (m ((c : Thread nD τ).loc main_arg3)) := by
  refine (W2_arr m ρ c 3).trans ((final1 (V1 m ρ) c).trans ?_)
  rw [entry_features m ρ c, entry_adj m ρ c, entry_w2 m ρ c]

/-- The run: every weakly fair execution terminates with the result at (A · H) · W2 and the arguments as launched. -/
theorem run : θ_run defs (onTc (τ := τ) (main (F := Ideal))) ⟨m, fun _ => 0, ρ⟩ (fun r => ∀ c : Dev nD,
      r.2.mem ((c.tc : Thread nD τ).loc main_v1)
        = aggregateThenExpand (m ((c : Thread nD τ).loc main_arg1))
            (projected (m ((c : Thread nD τ).loc main_arg0)) (m ((c : Thread nD τ).loc main_arg2)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Run.run_result m ρ)

end Cert.KernelIdeal.KernelValue

end
-- ==== Proof.RefValue.lean ====
/-
  The reference computes A · ((X · W1) · W2): its three matrix products, read one at a time at an index, are the
  projected features H = X · W1, then H · W2, then the product of A with that.
-/
import proofs.«109558_g61306363183711_cont_9to1_m_1256_16_alg».proof.Proof.Gen.ReferenceIdeal.Read
import proofs.«109558_g61306363183711_cont_9to1_m_1256_16_alg».proof.Proof.Spec

noncomputable section

namespace Cert.ReferenceIdeal.RefValue

open Cert.ReferenceIdeal Cert.ReferenceIdeal.Read Idealize.ShloMosaic Idealize.ShloMosaic.ValueIdx Cert.Layer

/-- The reference's result is A · (H · W2) with H the projected features of X and W1. -/
theorem result_eq (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32x128, .f32⟩ : BufTy).Contents (Elt Ideal)) :
    val_main_v2 (F := Ideal) x0 x1 x2 x3 = expandThenAggregate x1 (projected x0 x2) x3 := by
  funext i
  rw [val_main_v2_apply]
  unfold expandThenAggregate
  refine Finset.sum_congr rfl fun k _ => ?_
  have e1 : lidx_main_v2 i k = ix2 (i 0) k := idx_eq_ix2 _ _ _ rfl rfl
  rw [e1, val_main_v1_apply]
  refine congrArg (x1 (ix2 (i 0) k) * ·) (Finset.sum_congr rfl fun l _ => ?_)
  have e2 : ridx_main_v1 (ridx_main_v2 i k) l = ix2 l (i 1) := idx_eq_ix2 _ _ _ rfl rfl
  have e3 : lidx_main_v1 (ridx_main_v2 i k) l = ix2 k l := idx_eq_ix2 _ _ _ rfl rfl
  rw [e2, e3, val_main_v0_apply]
  unfold projected
  refine congrArg (· * x3 (ix2 l (i 1))) (Finset.sum_congr rfl fun j _ => ?_)
  have e4 : lidx_main_v0 (ix2 k l) j = ix2 ((ix2 k l : S10000x32.Idx) 0) j := idx_eq_ix2 _ _ _ rfl rfl
  have e5 : ridx_main_v0 (ix2 k l) j = ix2 j ((ix2 k l : S10000x32.Idx) 1) := idx_eq_ix2 _ _ _ rfl rfl
  rw [e4, e5]
  rfl

end Cert.ReferenceIdeal.RefValue

end
-- ==== Proof.FiniteInputs.lean ====
/-
  From the precondition to real-valued inputs.

  The precondition says, of each of the four input arrays, that every entry x satisfies |x| < +∞, and joins the four
  statements by "and".  On the extended reals |x| = max x (-x) is +∞ exactly at the two infinities, so each entry is a
  real number.
-/
import proofs.«109558_g61306363183711_cont_9to1_m_1256_16_alg».proof.Pre_finite_inputs
import proofs.«109558_g61306363183711_cont_9to1_m_1256_16_alg».proof.Proof.LibFinite
import Idealize.ShloMosaic.Lib.ReduceAll
import Idealize.ShloMosaic.Lib.ValueIdx
import Idealize.ShloMosaic.Lib.Affine

noncomputable section

namespace Cert.FiniteInputs

open Idealize.ShloMosaic Cert.LibFinite Cert.Pre_finite_inputs

/-- The pattern of +∞ denotes the top element, and an extended real whose absolute value is below it is a real. -/
theorem isFin_of_abs_lt_inf (x : EReal)
    (h : Ideal.cmp .olt (max x (-x)) (Ideal.ofBits .f32 0x7F800000#32) = 1#1) : IsFin x := by
  have htop : Ideal.ofBits .f32 0x7F800000#32 = (⊤ : EReal) := by simp [Ideal.ofBits, Ideal.ieee]
  rw [htop] at h
  unfold Ideal.cmp at h
  have hlt : max x (-x) < ⊤ := by
    by_contra hn
    simp [hn] at h
  induction x using EReal.rec with
  | bot => simp at hlt
  | coe r => exact ⟨r, rfl⟩
  | top => simp at hlt

/-- The shape of a scalar has exactly one index. -/
instance : Subsingleton S_.Idx := ⟨fun a b => funext fun d => d.elim0⟩

variable [Cert.Pre_finite_inputs.Facts]

/-- Where the precondition holds, every entry of every input is a real number. -/
theorem finite_of_pre (a0 : FVec Ideal S10000x128 .f32) (a1 : FVec Ideal S10000x10000 .f32) (a2 : FVec Ideal S128x32 .f32)
    (a3 : FVec Ideal S32x128 .f32) (h : fn (F := Ideal) a0 a1 a2 a3 = fun _ => 1#1) :
    (∀ i, IsFin (a0 i)) ∧ (∀ i, IsFin (a1 i)) ∧ (∀ i, IsFin (a2 i)) ∧ (∀ i, IsFin (a3 i)) := by
  have h0 := congrFun h ValueIdx.ix0
  dsimp only [fn, fn_part1] at h0
  obtain ⟨h012, e3⟩ := IntOp.andi_eq_one.mp h0
  obtain ⟨h01, e2⟩ := IntOp.andi_eq_one.mp h012
  obtain ⟨e0, e1⟩ := IntOp.andi_eq_one.mp h01
  exact ⟨fun i => isFin_of_abs_lt_inf _ (Host.reduce_andi_all _ _ _ _ _ e0 i),
    fun i => isFin_of_abs_lt_inf _ (Host.reduce_andi_all _ _ _ _ _ e1 i),
    fun i => isFin_of_abs_lt_inf _ (Host.reduce_andi_all _ _ _ _ _ e2 i),
    fun i => isFin_of_abs_lt_inf _ (Host.reduce_andi_all _ _ _ _ _ e3 i)⟩

end Cert.FiniteInputs

end
-- ==== Proof.lean ====
/-
  A graph-convolution layer without bias on 10000 nodes: out = A · ((X · W1) · W2), with X the node features
  (10000 × 128), W1 (128 × 32) and W2 (32 × 128) the two weight matrices and A the dense adjacency matrix
  (10000 × 10000).

  The kernel first forms the projected features H = X · W1 in one step, then, for each of 25 blocks of 400 rows of A,
  forms (A_block · H) · W2 and writes it as the same 400 rows of the result.  The reference forms H, then H · W2, then
  A · (H · W2).  Read over the extended reals, where a change of float format is the identity and a matrix product
  accumulated into zero is the plain sum of products, the kernel's result is (A · H) · W2 and the reference's is
  A · (H · W2).  These agree by associativity of the matrix product, which rests on distributivity and therefore needs
  the entries to be real numbers: that is what the precondition gives for X, W1, A and W2, and H is then real too.

  Nothing is rewritten between the kernel and its idealization, so that conjunct is trivial; each program's run
  terminates without fault and leaves its arguments as launched.
-/
import proofs.«109558_g61306363183711_cont_9to1_m_1256_16_alg».proof.Defs
import proofs.«109558_g61306363183711_cont_9to1_m_1256_16_alg».proof.Proof.Gen.Kernel
import proofs.«109558_g61306363183711_cont_9to1_m_1256_16_alg».proof.Proof.Gen.Kernel.Skeleton
import proofs.«109558_g61306363183711_cont_9to1_m_1256_16_alg».proof.Proof.Gen.Kernel.Launch
import proofs.«109558_g61306363183711_cont_9to1_m_1256_16_alg».proof.Proof.Gen.Kernel.Points
import proofs.«109558_g61306363183711_cont_9to1_m_1256_16_alg».proof.Proof.Gen.Kernel.Frame
import proofs.«109558_g61306363183711_cont_9to1_m_1256_16_alg».proof.Proof.Gen.KernelIdeal
import proofs.«109558_g61306363183711_cont_9to1_m_1256_16_alg».proof.Proof.Gen.KernelIdeal.Skeleton
import proofs.«109558_g61306363183711_cont_9to1_m_1256_16_alg».proof.Proof.Gen.KernelIdeal.Launch
import proofs.«109558_g61306363183711_cont_9to1_m_1256_16_alg».proof.Proof.Gen.KernelIdeal.Points
import proofs.«109558_g61306363183711_cont_9to1_m_1256_16_alg».proof.Proof.Gen.KernelIdeal.Frame
import proofs.«109558_g61306363183711_cont_9to1_m_1256_16_alg».proof.Proof.Gen.ReferenceIdeal
import proofs.«109558_g61306363183711_cont_9to1_m_1256_16_alg».proof.Proof.Gen.Pre_finite_inputs
import proofs.«109558_g61306363183711_cont_9to1_m_1256_16_alg».proof.Proof.Gen.ReferenceIdeal.Run
import proofs.«109558_g61306363183711_cont_9to1_m_1256_16_alg».proof.Proof.Gen.ReferenceIdeal.Read
import proofs.«109558_g61306363183711_cont_9to1_m_1256_16_alg».proof.Proof.KernelValue
import proofs.«109558_g61306363183711_cont_9to1_m_1256_16_alg».proof.Proof.RefValue
import proofs.«109558_g61306363183711_cont_9to1_m_1256_16_alg».proof.Proof.FiniteInputs
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories agreeing on the four arguments, the kernel ends at (A · H) · W2 and the reference at A · (H · W2),
    H = X · W1; the precondition makes every entry of X, W1, A and W2 a real number, hence every entry of H, and on
    real-valued arrays the two orders of the product agree. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.FiniteInputs.finite_of_pre _ _ _ _ (hpre c)
  rw [(hagree c).1, (hagree c).2.1, (hagree c).2.2.1, (hagree c).2.2.2, Cert.ReferenceIdeal.Read.val_main_v2_eq,
    Cert.ReferenceIdeal.RefValue.result_eq]
  exact (Cert.Layer.orders_agree _ _ _ f1 (Cert.Layer.projected_isFin _ _ f0 f2) f3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
